-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8192x1024 : Shape := ⟨2, ![8192, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1x4096 : Shape := ⟨2, ![1, 4096]⟩
abbrev S8192x4096 : Shape := ⟨2, ![8192, 4096]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .bf16⟩
  | .hbm, ⟨3, _⟩ => ⟨S4096x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S8192x4096, .f32⟩
  | .hbm, ⟨14, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S4096x1024_S4096_d1 : S4096x1024.ReducesTo [1] S4096
  bcast_S4096_S4096x1_0 : S4096.BroadcastsInDim S4096x1 (![0] : Fin 1 → Fin S4096x1.rank)
  shapeCasts_S4096x1_S1x4096 : S4096x1.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x1024 : S1024x1.Broadcasts S1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩
abbrev S8192x4096 : Shape := ⟨2, ![8192, 4096]⟩
abbrev S1024x4096 : Shape := ⟨2, ![1024, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1024x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x4096, .f32⟩
  | .hbm, ⟨40, _⟩ => ⟨S8192x4096, .f32⟩
  | .hbm, ⟨41, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S4096x1024_S4096_d1 : S4096x1024.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  transposes_S4096x1024_S1024x4096_1_0 : S4096x1024.Transposes [1, 0] S1024x4096
  bcast_S_S8192x4096 : S_.BroadcastsInDim S8192x4096 (![] : Fin 0 → Fin S8192x4096.rank)
  reducesTo_S8192x4096_S8192_d1 : S8192x4096.ReducesTo [1] S8192
  bcast_S_S8192 : S_.BroadcastsInDim S8192 (![] : Fin 0 → Fin S8192.rank)
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Pieces.lean ====
/-
  What one run of the body leaves behind, read off the body's stores: the block of the first result is the
  body's similarity term of the four input blocks, at every grid point; the two carried buffers (the running
  sum of `exp(sim)` times the rows of `e`, and the running sum of `exp(sim)`) restart from zero at the first
  point of a row of the grid and add this point's contribution to what the previous point left elsewhere; at
  the last point of a row the block of the second result is the quotient of the two carried buffers.
-/
import proofs.«163960_j71502615544486_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- At a first point of a row, the first result's block is the similarity term of the input blocks. -/
theorem simBlock_A (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : cond0_0 i) (hc1 : ¬cond0_1 i) (x0 : Vec F S1024x1024 .bf16) (x1 : Vec F S512x1024 .bf16) (x2 : Vec F S1024x1 .f32) (x3 : Vec F S1x512 .f32) :
    out0_A_4 c i arg2 harg2 arg3 harg3 arg4 harg4 arg5 harg5 arg6 harg6 arg7 harg7 arg8 harg8 arg9 harg9 hc0 hc1 x0 x1 x2 x3 = k0_pay6 x0 x1 x2 x3 := by
  unfold out0_A_4
  rw [View.read_writes_eq_canon _ _ _ (cover0_A_4 c i arg2 harg2 arg3 harg3 arg4 harg4 arg5 harg5 arg6 harg6 arg7 harg7 arg8 harg8 arg9 harg9 hc0 hc1 x0 x1 x2 x3)]
  unfold kernelRun0_A
  dsimp only
  try sl_unfold_words
  rw [View.canon_unit_zero hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a middle point likewise. -/
theorem simBlock_B (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : ¬cond0_1 i) (x0 : Vec F S1024x1024 .bf16) (x1 : Vec F S512x1024 .bf16) (x2 : Vec F S1024x1 .f32) (x3 : Vec F S1x512 .f32) (xs0 : Vec F S1024x1024 .f32) (xs1 : Vec F S1024x1 .f32) :
    out0_B_4 c i arg2 harg2 arg3 harg3 arg4 harg4 arg5 harg5 arg6 harg6 arg7 harg7 arg8 harg8 arg9 harg9 hc0 hc1 x0 x1 x2 x3 xs0 xs1 = k0_pay6 x0 x1 x2 x3 := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0 xs1)]
  unfold kernelRun0_B
  dsimp only
  try sl_unfold_words
  rw [View.canon_unit_zero hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a last point likewise. -/
theorem simBlock_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : cond0_1 i) (x0 : Vec F S1024x1024 .bf16) (x1 : Vec F S512x1024 .bf16) (x2 : Vec F S1024x1 .f32) (x3 : Vec F S1x512 .f32) (xs0 : Vec F S1024x1024 .f32) (xs1 : Vec F S1024x1 .f32) :
    out0_C_4 c i arg2 harg2 arg3 harg3 arg4 harg4 arg5 harg5 arg6 harg6 arg7 harg7 arg8 harg8 arg9 harg9 hc0 hc1 x0 x1 x2 x3 xs0 xs1 = k0_pay6 x0 x1 x2 x3 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  try sl_unfold_words
  rw [View.canon_unit_zero hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a first point the weighted-rows buffer is this point's contribution added to the zero just stored. -/
theorem accFirst (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : cond0_0 i) (hc1 : ¬cond0_1 i) (x0 : Vec F S1024x1024 .bf16) (x1 : Vec F S512x1024 .bf16) (x2 : Vec F S1024x1 .f32) (x3 : Vec F S1x512 .f32) :
    sout0_A_0 c i arg2 harg2 arg3 harg3 arg4 harg4 arg5 harg5 arg6 harg6 arg7 harg7 arg8 harg8 arg9 harg9 hc0 hc1 x0 x1 x2 x3 = k0_pay1 (k0_pay5 x1) (k0_pay7 x0 x1 x2 x3) k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  try sl_unfold_words
  rw [View.canon_cons_unit_zero hz, View.readCov_unit_zero (S := S1024x1024) _ hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a middle point it is this point's contribution added to what the previous point left. -/
theorem accNext_B (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : ¬cond0_1 i) (x0 : Vec F S1024x1024 .bf16) (x1 : Vec F S512x1024 .bf16) (x2 : Vec F S1024x1 .f32) (x3 : Vec F S1x512 .f32) (xs0 : Vec F S1024x1024 .f32) (xs1 : Vec F S1024x1 .f32) :
    sout0_B_0 c i arg2 harg2 arg3 harg3 arg4 harg4 arg5 harg5 arg6 harg6 arg7 harg7 arg8 harg8 arg9 harg9 hc0 hc1 x0 x1 x2 x3 xs0 xs1 = k0_pay1 (k0_pay5 x1) (k0_pay7 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  try sl_unfold_words
  rw [View.canon_unit_zero hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a last point likewise. -/
theorem accNext_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : cond0_1 i) (x0 : Vec F S1024x1024 .bf16) (x1 : Vec F S512x1024 .bf16) (x2 : Vec F S1024x1 .f32) (x3 : Vec F S1x512 .f32) (xs0 : Vec F S1024x1024 .f32) (xs1 : Vec F S1024x1 .f32) :
    sout0_C_0 c i arg2 harg2 arg3 harg3 arg4 harg4 arg5 harg5 arg6 harg6 arg7 harg7 arg8 harg8 arg9 harg9 hc0 hc1 x0 x1 x2 x3 xs0 xs1 = k0_pay1 (k0_pay5 x1) (k0_pay7 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  try sl_unfold_words
  rw [View.canon_unit_zero hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a first point the normaliser buffer is this point's row sums added to the zero just stored. -/
theorem sumFirst (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : cond0_0 i) (hc1 : ¬cond0_1 i) (x0 : Vec F S1024x1024 .bf16) (x1 : Vec F S512x1024 .bf16) (x2 : Vec F S1024x1 .f32) (x3 : Vec F S1x512 .f32) :
    sout0_A_1 c i arg2 harg2 arg3 harg3 arg4 harg4 arg5 harg5 arg6 harg6 arg7 harg7 arg8 harg8 arg9 harg9 hc0 hc1 x0 x1 x2 x3 = k0_pay8 x0 x1 x2 x3 k0_pay4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  try sl_unfold_words
  rw [View.canon_cons_unit_zero hz, View.readCov_unit_zero (S := S1024x1) _ hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a middle point it is this point's row sums added to what the previous point left. -/
theorem sumNext_B (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : ¬cond0_1 i) (x0 : Vec F S1024x1024 .bf16) (x1 : Vec F S512x1024 .bf16) (x2 : Vec F S1024x1 .f32) (x3 : Vec F S1x512 .f32) (xs0 : Vec F S1024x1024 .f32) (xs1 : Vec F S1024x1 .f32) :
    sout0_B_1 c i arg2 harg2 arg3 harg3 arg4 harg4 arg5 harg5 arg6 harg6 arg7 harg7 arg8 harg8 arg9 harg9 hc0 hc1 x0 x1 x2 x3 xs0 xs1 = k0_pay8 x0 x1 x2 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  try sl_unfold_words
  rw [View.canon_unit_zero hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a last point likewise. -/
theorem sumNext_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : cond0_1 i) (x0 : Vec F S1024x1024 .bf16) (x1 : Vec F S512x1024 .bf16) (x2 : Vec F S1024x1 .f32) (x3 : Vec F S1x512 .f32) (xs0 : Vec F S1024x1024 .f32) (xs1 : Vec F S1024x1 .f32) :
    sout0_C_1 c i arg2 harg2 arg3 harg3 arg4 harg4 arg5 harg5 arg6 harg6 arg7 harg7 arg8 harg8 arg9 harg9 hc0 hc1 x0 x1 x2 x3 xs0 xs1 = k0_pay8 x0 x1 x2 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  try sl_unfold_words
  rw [View.canon_unit_zero hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

/-- At a last point the second result's block is the quotient of the two buffers as this point leaves them. -/
theorem quotient_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (hc0 : ¬cond0_0 i) (hc1 : cond0_1 i) (x0 : Vec F S1024x1024 .bf16) (x1 : Vec F S512x1024 .bf16) (x2 : Vec F S1024x1 .f32) (x3 : Vec F S1x512 .f32) (xs0 : Vec F S1024x1024 .f32) (xs1 : Vec F S1024x1 .f32) :
    out0_C_5 c i arg2 harg2 arg3 harg3 arg4 harg4 arg5 harg5 arg6 harg6 arg7 harg7 arg8 harg8 arg9 harg9 hc0 hc1 x0 x1 x2 x3 xs0 xs1 = k0_pay2 (k0_pay1 (k0_pay5 x1) (k0_pay7 x0 x1 x2 x3) xs0) (k0_pay8 x0 x1 x2 x3 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  try sl_unfold_words
  rw [View.canon_unit_zero hz, View.readCov_unit_zero (S := S1024x1024) _ hz, View.readCov_unit_zero (S := S1024x1) _ hz]
  simp only [View.readAt_eq_ld, harg2.read_unread, harg3.read_unread, harg4.read_unread, harg5.read_unread, harg8.read_unread, harg9.read_unread,
    View.ld_unit_zero (S := S1024x1024) hz, View.ld_unit_zero (S := S512x1024) hz, View.ld_unit_zero (S := S1024x1) hz, View.ld_unit_zero (S := S1x512) hz]

end Cert.KernelIdeal.Pieces

end
-- ==== Proof.Payload.lean ====
/-
  The body's arithmetic read at one entry, over the extended reals. For blocks `x0` (1024 rows of `z`), `x1`
  (512 rows of `e`), `x2` (the squared lengths of those rows of `z`, a column) and `x3` (the squared lengths
  of those rows of `e`, a row):

    similarity block at (r, j) = exp (max ((x2 r + x3 j) - 2 * ∑ d, x0 r d * x1 j d) 0 * (-1/2))
    normaliser step  at r      = previous r + ∑ j, exp (similarity (r, j))
    weighted-rows step at (r, d) = previous (r, d) + ∑ j, exp (similarity (r, j)) * x1 j d
    quotient at (r, d)         = weighted-rows (r, d) / normaliser r

  A matrix product into a zero accumulator is the plain sum over the contracted axis; a lane sum is the plain
  sum over the lanes; a change of float format is the identity.
-/
import proofs.«163960_j71502615544486_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload
open Cert.KernelIdeal Cert.KernelIdeal.Gen

/-! ## Layout operations at an entry -/

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, 0)`, the vector at `p`. -/
theorem shapeCast_a_a1_apply {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h _ (ix1 p) ?_
  rw [Shape.rowMajor_val_one, Shape.rowMajor_val_two]
  show p.val = p.val * 1 + 0
  omega

/-- The exponential of a vector, at an entry. -/
theorem exp_apply {s : Shape} {φ : FTy} (v : FVec Ideal s φ) (i : s.Idx) : (exp v : FVec Ideal s φ) i = Ideal.exp (v i) := rfl

/-- A lane sum of a `[1024, 512]` block, at row `r`: the sum over the 512 lanes. -/
theorem laneSum_apply (src : FVec Ideal S1024x512 .f32) (hφ : FKind.Formats .f32)
    (hacc : (0x00000000#32 : BitVec FTy.f32.bits) = FKind.add.neutral .f32 hφ) (r : Fin 1024) :
    multiReduction .add [1] S1024 src 0x00000000#32 reduces_S1024x512_S1024 hφ hacc (ix1 r) = ∑ j : Fin 512, src (ix2 r j) := by
  refine (Ideal.multiReduction_add_single src _ reduces_S1024x512_S1024 hφ hacc (ix1 r)).trans ?_
  refine Finset.sum_congr rfl fun k _ => ?_
  exact congrArg src (funext fun a => Fin.ext (by match a with | ⟨0, _⟩ => rfl | ⟨1, _⟩ => rfl))

theorem mmSim_lhs0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem mmSim_rhs1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl
/-- The matrix product into a zero accumulator, read at `(p, q)`: the sum over the contracted axis of the products. -/
theorem mmSim_apply (l : FVec Ideal S1024x1024 .bf16) (r : FVec Ideal S1024x512 .bf16) (p : Fin 1024) (q : Fin 512) :
    matmul dot_S1024x1024_S1024x512_S1024x512_1_0_0_1_n_n none l r (constant S1024x512 .f32 0x00000000#32) (ix2 p q) = ∑ k : Fin 1024, l (ix2 p k) * r (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact mmSim_lhs0 _ _
    | ⟨1, _⟩ => exact (dot_S1024x1024_S1024x512_S1024x512_1_0_0_1_n_n.lhsIdx_val_of_single rfl _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (dot_S1024x1024_S1024x512_S1024x512_1_0_0_1_n_n.rhsIdx_val_of_single rfl _ _).trans hk
    | ⟨1, _⟩ => exact mmSim_rhs1 _ _)
  rw [el, er]

theorem mmAcc_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mmAcc_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl
/-- The matrix product into a zero accumulator, read at `(p, q)`: the sum over the contracted axis of the products. -/
theorem mmAcc_apply (l : FVec Ideal S1024x512 .bf16) (r : FVec Ideal S512x1024 .bf16) (p : Fin 1024) (q : Fin 1024) :
    matmul dot_S1024x512_S512x1024_S1024x1024_1_0_0_1_n_n none l r (constant S1024x1024 .f32 0x00000000#32) (ix2 p q) = ∑ k : Fin 512, l (ix2 p k) * r (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact mmAcc_lhs0 _ _
    | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (dot_S1024x512_S512x1024_S1024x1024_1_0_0_1_n_n.rhsIdx_val_of_single rfl _ _).trans hk
    | ⟨1, _⟩ => exact mmAcc_rhs1 _ _)
  rw [el, er]

/-! ## The body's terms at an entry -/

/-- The similarity block at `(r, j)`. -/
theorem sim_apply (x0 : Vec Ideal S1024x1024 .bf16) (x1 : Vec Ideal S512x1024 .bf16) (x2 : Vec Ideal S1024x1 .f32) (x3 : Vec Ideal S1x512 .f32)
    (r : Fin 1024) (j : Fin 512) :
    k0_pay6 (F := Ideal) x0 x1 x2 x3 (ix2 r j)
      = Ideal.exp (max ((x2 (ix2 r (0 : Fin 1)) + x3 (ix2 (0 : Fin 1) j))
            - Ideal.ofBits .f32 0x40000000#32 * ∑ d : Fin 1024, x0 (ix2 r d) * x1 (ix2 j d))
          (Ideal.ofBits .f32 0x00000000#32) * Ideal.ofBits .f32 0xBF000000#32) := by
  unfold k0_pay6 k0_pay5
  simp only [exp_apply, mulf_apply, maximumf_apply, subf_apply, addf_apply, broadcast_apply, shapeCast_self,
    broadcastTo_a1_ab_apply, broadcastTo_1b_ab_apply, mmSim_apply]
  have ht : ∀ k : Fin 1024, transpose S1024x512 [1, 0] x1 transposes_S512x1024_p1_0_S1024x512 (ix2 k j) = x1 (ix2 j k) :=
    fun k => transpose_ix2_apply (a := 512) (b := 1024) x1 _ k j
  simp only [ht]
  rfl

/-- The normaliser after this point, at row `r`: what it held plus the row's sum of `exp (similarity)`. -/
theorem sumStep_apply (x0 : Vec Ideal S1024x1024 .bf16) (x1 : Vec Ideal S512x1024 .bf16) (x2 : Vec Ideal S1024x1 .f32) (x3 : Vec Ideal S1x512 .f32)
    (v26 : Vec Ideal S1024x1 .f32) (r : Fin 1024) :
    k0_pay8 (F := Ideal) x0 x1 x2 x3 v26 (ix2 r (0 : Fin 1))
      = v26 (ix2 r (0 : Fin 1)) + ∑ j : Fin 512, Ideal.exp (k0_pay6 (F := Ideal) x0 x1 x2 x3 (ix2 r j)) := by
  unfold k0_pay8 k0_pay7
  simp only [shapeCast_self, addf_apply, shapeCast_a_a1_apply]
  exact congrArg (v26 (ix2 r (0 : Fin 1)) + ·) (laneSum_apply _ _ _ r)

/-- The weighted rows after this point, at `(r, d)`: what they held plus `∑ j, exp (similarity (r, j)) * x1 j d`. -/
theorem accStep_apply (x0 : Vec Ideal S1024x1024 .bf16) (x1 : Vec Ideal S512x1024 .bf16) (x2 : Vec Ideal S1024x1 .f32) (x3 : Vec Ideal S1x512 .f32)
    (v33 : Vec Ideal S1024x1024 .f32) (r : Fin 1024) (d : Fin 1024) :
    k0_pay1 (F := Ideal) (k0_pay5 x1) (k0_pay7 x0 x1 x2 x3) v33 (ix2 r d)
      = v33 (ix2 r d) + ∑ j : Fin 512, Ideal.exp (k0_pay6 (F := Ideal) x0 x1 x2 x3 (ix2 r j)) * x1 (ix2 j d) := by
  unfold k0_pay1 k0_pay5 k0_pay7
  simp only [shapeCast_self, addf_apply, mmAcc_apply, truncf_apply, exp_apply]

/-- The quotient at `(r, d)`. -/
theorem quot_apply (v43 : Vec Ideal S1024x1024 .f32) (v44 : Vec Ideal S1024x1 .f32) (r : Fin 1024) (d : Fin 1024) :
    k0_pay2 (F := Ideal) v43 v44 (ix2 r d) = Ideal.div (v43 (ix2 r d)) (v44 (ix2 r (0 : Fin 1))) := by
  unfold k0_pay2
  simp only [divf_apply, broadcastTo_a1_ab_apply]

/-- The zero the weighted rows restart from. -/
theorem zeroAcc_apply (i : S1024x1024.Idx) : k0_pay3 (F := Ideal) i = Ideal.ofBits .f32 0x00000000#32 := rfl
/-- The zero the normaliser restarts from. -/
theorem zeroSum_apply (i : S1024x1.Idx) : k0_pay4 (F := Ideal) i = Ideal.ofBits .f32 0x00000000#32 := rfl

end Cert.KernelIdeal.Payload

end
-- ==== Proof.LibRealSums.lean ====
/-
  General facts about finite sums of real numbers inside the extended reals, used to move a computation
  whose every operand is a real number from the extended reals to the reals:

  * the inclusion of the reals commutes with finite sums (`coe_sum`);
  * a maximum taken from `⊥` over a nonempty finite family of reals is a real (`fold_max_real`);
  * the quotient of two reals with a nonzero divisor is the real quotient (`div_coe_coe`);
  * a sum over `Fin (m * n)` is the sum over `m` consecutive blocks of `n` terms (`sum_fin_blocks`),
    and a sum over a range of blocks is the same as the sum over `Fin m` (`sum_range_eq_fin`);
  * a softmax-weighted average does not depend on the shift: for every real `μ`,
    `∑ j, (exp (s j - μ) / ∑ j', exp (s j' - μ)) * b j = (∑ j, exp (s j) * b j) / ∑ j, exp (s j)`
    (`softmax_weighted`).
-/
import Idealize.ShloMosaic.PureOps.Ideal

noncomputable section

open scoped BigOperators

namespace Cert.LibRealSums

open Idealize.ShloMosaic

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, taken from `⊥`, of a nonempty finite family of reals is a real. -/
theorem fold_max_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    by_cases hs' : s.Nonempty
    · obtain ⟨r, hr⟩ := ih hs'
      rw [hr]
      exact ⟨max (f a) r, (EReal.coe_strictMono.monotone.map_max).symm⟩
    · rw [Finset.not_nonempty_iff_eq_empty.mp hs', Finset.fold_empty]
      exact ⟨f a, max_eq_left bot_le⟩

/-- The extended reals' quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- A sum over a range of naturals is the sum over the corresponding `Fin`. -/
theorem sum_range_eq_fin {M : Type*} [AddCommMonoid M] (m : ℕ) (f : ℕ → M) :
    ∑ s ∈ Finset.range m, f s = ∑ s : Fin m, f s.val :=
  (Fin.sum_univ_eq_sum_range f m).symm

/-- A sum over `m * n` consecutive indices is the sum over `m` blocks of `n` consecutive indices. -/
theorem sum_fin_blocks {M : Type*} [AddCommMonoid M] (m n : ℕ) (g : ℕ → M) :
    ∑ j : Fin (m * n), g j.val = ∑ s : Fin m, ∑ jj : Fin n, g (n * s.val + jj.val) := by
  rw [Fin.sum_univ_eq_sum_range g (m * n), Fin.sum_univ_eq_sum_range (fun s => ∑ jj : Fin n, g (n * s + jj.val)) m]
  induction m with
  | zero => simp
  | succ m ih =>
    rw [Finset.sum_range_succ, ← ih, Nat.succ_mul, Finset.sum_range_add, Nat.mul_comm m n,
      Fin.sum_univ_eq_sum_range (fun x => g (n * m + x)) n]

/-- A softmax-weighted average does not depend on the shift subtracted inside the exponentials. -/
theorem softmax_weighted {ι : Type*} [Fintype ι] (s b : ι → ℝ) (μ : ℝ) :
    ∑ j, (Real.exp (s j - μ) / ∑ j', Real.exp (s j' - μ)) * b j
      = (∑ j, Real.exp (s j) * b j) / ∑ j, Real.exp (s j) := by
  have hμ : Real.exp μ ≠ 0 := (Real.exp_pos μ).ne'
  have h1 : ∀ j, Real.exp (s j - μ) = Real.exp (s j) / Real.exp μ := fun j => Real.exp_sub _ _
  simp only [h1]
  have h2 : ∑ j', Real.exp (s j') / Real.exp μ = (∑ j', Real.exp (s j')) / Real.exp μ :=
    (Finset.sum_div Finset.univ (fun j' => Real.exp (s j')) (Real.exp μ)).symm
  rw [h2, Finset.sum_div Finset.univ (fun j => Real.exp (s j) * b j)]
  refine Finset.sum_congr rfl fun j _ => ?_
  rw [div_div_div_cancel_right₀ hμ, div_mul_eq_mul_div]

end Cert.LibRealSums

end
-- ==== Proof.Spec.lean ====
/-
  THE MATHEMATICS of this certificate, over the extended reals, with no program in sight.

  The arguments are `z` (8192 rows of 1024 entries) and `e` (4096 rows of 1024 entries). Write
  `|x_a|² = 0 + ∑ d, x a d * x a d` for the squared length of row `a` (`rowSq`). Both programs compute

    dist2 n j = max ((|z_n|² + |e_j|²) - 2 * ∑ d, z n d * e j d) 0          (`dist2`)
    sim n j   = exp (dist2 n j * (-1/2))                                     (`sim`: the first result)

  one as the product with `-1/2`, the other as `exp ((-dist2) / 2)`: the same extended real, for every
  `dist2`, infinite or not (`exp_neg_div_two`: dividing by the real 2 is multiplying by 1/2, and a sign moves
  across a product of extended reals). The second result is a softmax-weighted average of the rows of `e`:

    wK n d   = (0 + ∑ j, exp (sim n j) * e j d) / (0 + ∑ j, exp (sim n j))                                  (`wK`)
    wRef n d = ∑ j, (exp (sim n j - M n) / (0 + ∑ j', exp (sim n j' - M n))) * e j d,  M n = max_j sim n j   (`wRef`)

  These agree when every entry of `z` and `e` is a real number (`wRef_eq_wK`): then every `sim n j` is a real
  (`sim_coe`), so is the row maximum `M n`, every sum is a sum of reals, and over the reals the shift `M n`
  cancels between numerator and denominator and the common denominator moves out of the sum
  (`LibRealSums.softmax_weighted`). With an infinite entry in `e` the two sides may differ (a sum of extended
  reals that meets both infinities depends on its grouping), so finiteness of the inputs is used exactly here.
-/
import Idealize.ShloMosaic.PureOps.Ideal
import Idealize.ShloMosaic.PureOps.Ideal.Laws
import Idealize.ShloMosaic.Lib.ValueIdx
import proofs.«163960_j71502615544486_2_alg».proof.Proof.LibRealSums

noncomputable section

open scoped BigOperators

namespace Cert.SoftAttend

open Idealize.ShloMosaic Idealize.ShloMosaic.ValueIdx Cert.LibRealSums

/-- The shape of `z`. -/
abbrev Zs : Shape := ⟨2, ![8192, 1024]⟩
/-- The shape of `e`. -/
abbrev Es : Shape := ⟨2, ![4096, 1024]⟩

/-! ## The three float words the programs spell, as extended reals -/

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-! ## The first result -/

/-- The squared length of row `a`, summed from the zero both programs start their sums at. -/
def rowSq {n : ℕ} (x : (⟨2, ![n, 1024]⟩ : Shape).Idx → EReal) (a : Fin n) : EReal :=
  Ideal.ofBits .f32 0x00000000#32 + ∑ d : Fin 1024, x (ix2 a d) * x (ix2 a d)

/-- The clamped squared distance between row `n` of `z` and row `j` of `e`. -/
def dist2 (z : Zs.Idx → EReal) (e : Es.Idx → EReal) (n : Fin 8192) (j : Fin 4096) : EReal :=
  max ((rowSq z n + rowSq e j) - Ideal.ofBits .f32 0x40000000#32 * ∑ d : Fin 1024, z (ix2 n d) * e (ix2 j d))
    (Ideal.ofBits .f32 0x00000000#32)

/-- The similarity: `exp (-dist2 / 2)`, spelled as the product with the word `-1/2`. -/
def sim (z : Zs.Idx → EReal) (e : Es.Idx → EReal) (n : Fin 8192) (j : Fin 4096) : EReal :=
  Ideal.exp (dist2 z e n j * Ideal.ofBits .f32 0xBF000000#32)

/-- `exp ((-x) / 2) = exp (x * (-1/2))` for every extended real `x`. -/
theorem exp_neg_div_two (x : EReal) :
    Ideal.exp (Ideal.div (-x) (Ideal.ofBits .f32 0x40000000#32)) = Ideal.exp (x * Ideal.ofBits .f32 0xBF000000#32) := by
  rw [ofBits_two, ofBits_neg_half, Ideal.div_coe (by norm_num : (2 : ℝ) ≠ 0), EReal.coe_neg, mul_neg, neg_mul]

/-! ## The second result, in its two spellings -/

/-- The weighted average as the accumulating program forms it: one quotient of two sums. -/
def wK (z : Zs.Idx → EReal) (e : Es.Idx → EReal) (n : Fin 8192) (d : Fin 1024) : EReal :=
  Ideal.div (Ideal.ofBits .f32 0x00000000#32 + ∑ j : Fin 4096, Ideal.exp (sim z e n j) * e (ix2 j d))
    (Ideal.ofBits .f32 0x00000000#32 + ∑ j : Fin 4096, Ideal.exp (sim z e n j))

/-- The largest similarity in row `n`, taken from `-∞` (and once more against `-∞`). -/
def rowMax (z : Zs.Idx → EReal) (e : Es.Idx → EReal) (n : Fin 8192) : EReal :=
  max (Ideal.ofBits .f32 0xFF800000#32)
    ((Finset.univ : Finset (Fin 4096)).fold max (Ideal.ofBits .f32 0xFF800000#32) (fun j => sim z e n j))

/-- The weighted average as the softmax spells it: shifted exponentials, normalised entry by entry. -/
def wRef (z : Zs.Idx → EReal) (e : Es.Idx → EReal) (n : Fin 8192) (d : Fin 1024) : EReal :=
  ∑ j : Fin 4096, Ideal.div (Ideal.exp (sim z e n j - rowMax z e n))
      (Ideal.ofBits .f32 0x00000000#32 + ∑ j' : Fin 4096, Ideal.exp (sim z e n j' - rowMax z e n)) * e (ix2 j d)

/-! ## Real inputs -/

/-- The squared length of a real row. -/
def rowSqR {n : ℕ} (X : (⟨2, ![n, 1024]⟩ : Shape).Idx → ℝ) (a : Fin n) : ℝ :=
  ∑ d : Fin 1024, X (ix2 a d) * X (ix2 a d)

theorem rowSq_coe {n : ℕ} (X : (⟨2, ![n, 1024]⟩ : Shape).Idx → ℝ) (a : Fin n) :
    rowSq (fun i => (X i : EReal)) a = (rowSqR X a : EReal) := by
  unfold rowSq rowSqR
  rw [Ideal.ofBits_zero_f32, zero_add, coe_sum]
  exact Finset.sum_congr rfl fun d _ => (EReal.coe_mul _ _).symm

/-- The similarity of real inputs, as a real. -/
def simR (Z : Zs.Idx → ℝ) (E : Es.Idx → ℝ) (n : Fin 8192) (j : Fin 4096) : ℝ :=
  Real.exp (max (rowSqR Z n + rowSqR E j - 2 * ∑ d : Fin 1024, Z (ix2 n d) * E (ix2 j d)) 0 * (-(1 / 2)))

/-- With real inputs every similarity is a real. -/
theorem sim_coe (Z : Zs.Idx → ℝ) (E : Es.Idx → ℝ) (n : Fin 8192) (j : Fin 4096) :
    sim (fun i => (Z i : EReal)) (fun i => (E i : EReal)) n j = (simR Z E n j : EReal) := by
  unfold sim dist2 simR
  rw [rowSq_coe, rowSq_coe, ofBits_two, ofBits_neg_half, Ideal.ofBits_zero_f32]
  have hs : (∑ d : Fin 1024, ((Z (ix2 n d) : ℝ) : EReal) * ((E (ix2 j d) : ℝ) : EReal))
      = ((∑ d : Fin 1024, Z (ix2 n d) * E (ix2 j d) : ℝ) : EReal) := by
    rw [coe_sum]; exact Finset.sum_congr rfl fun d _ => (EReal.coe_mul _ _).symm
  have hm : ∀ x : ℝ, max (x : EReal) 0 = ((max x 0 : ℝ) : EReal) := fun x => by
    rw [← EReal.coe_zero]; exact (EReal.coe_strictMono.monotone.map_max).symm
  rw [hs, ← EReal.coe_add, ← EReal.coe_mul, ← EReal.coe_sub, hm, ← EReal.coe_mul]
  rfl

/-- With real inputs the two spellings of the weighted average agree. -/
theorem wRef_eq_wK (Z : Zs.Idx → ℝ) (E : Es.Idx → ℝ) (n : Fin 8192) (d : Fin 1024) :
    wRef (fun i => (Z i : EReal)) (fun i => (E i : EReal)) n d
      = wK (fun i => (Z i : EReal)) (fun i => (E i : EReal)) n d := by
  unfold wRef wK rowMax
  simp only [sim_coe]
  rw [ofBits_neg_inf, Ideal.ofBits_zero_f32]
  obtain ⟨μ, hμ⟩ := fold_max_real (Finset.univ : Finset (Fin 4096)) ⟨⟨0, by decide⟩, Finset.mem_univ _⟩
    (fun j => simR Z E n j)
  rw [hμ, max_eq_right bot_le]
  simp only [zero_add]
  have hD : (∑ j' : Fin 4096, Ideal.exp (((simR Z E n j' : ℝ) : EReal) - (μ : EReal)))
      = ((∑ j' : Fin 4096, Real.exp (simR Z E n j' - μ) : ℝ) : EReal) := by
    rw [coe_sum]; exact Finset.sum_congr rfl fun j _ => by rw [← EReal.coe_sub]; rfl
  have hne : (Finset.univ : Finset (Fin 4096)).Nonempty := ⟨⟨0, by decide⟩, Finset.mem_univ _⟩
  have hDpos' : 0 < ∑ j' : Fin 4096, Real.exp (simR Z E n j' - μ) :=
    Finset.sum_pos (fun j _ => Real.exp_pos _) hne
  have hDpos : (∑ j' : Fin 4096, Real.exp (simR Z E n j' - μ)) ≠ 0 := hDpos'.ne'
  have hTpos' : 0 < ∑ j' : Fin 4096, Real.exp (simR Z E n j') :=
    Finset.sum_pos (fun j _ => Real.exp_pos _) hne
  have hTpos : (∑ j' : Fin 4096, Real.exp (simR Z E n j')) ≠ 0 := hTpos'.ne'
  have hL : (∑ j : Fin 4096, Ideal.div (Ideal.exp (((simR Z E n j : ℝ) : EReal) - (μ : EReal)))
        (∑ j' : Fin 4096, Ideal.exp (((simR Z E n j' : ℝ) : EReal) - (μ : EReal))) * ((E (ix2 j d) : ℝ) : EReal))
      = ((∑ j : Fin 4096, (Real.exp (simR Z E n j - μ) / ∑ j' : Fin 4096, Real.exp (simR Z E n j' - μ)) * E (ix2 j d) : ℝ) : EReal) := by
    refine (Finset.sum_congr rfl fun j _ => ?_).trans (coe_sum _ _).symm
    rw [hD, ← EReal.coe_sub, show Ideal.exp (((simR Z E n j - μ : ℝ)) : EReal) = ((Real.exp (simR Z E n j - μ) : ℝ) : EReal) from rfl,
      div_coe_coe _ _ hDpos, ← EReal.coe_mul]
  have hN : (∑ j : Fin 4096, Ideal.exp ((simR Z E n j : ℝ) : EReal) * ((E (ix2 j d) : ℝ) : EReal))
      = ((∑ j : Fin 4096, Real.exp (simR Z E n j) * E (ix2 j d) : ℝ) : EReal) := by
    rw [coe_sum]; exact Finset.sum_congr rfl fun j _ => (EReal.coe_mul _ _).symm
  have hT : (∑ j : Fin 4096, Ideal.exp ((simR Z E n j : ℝ) : EReal))
      = ((∑ j : Fin 4096, Real.exp (simR Z E n j) : ℝ) : EReal) := by
    rw [coe_sum]; exact Finset.sum_congr rfl fun j _ => rfl
  rw [hL, hN, hT, div_coe_coe _ _ hTpos]
  exact congrArg _ (softmax_weighted (fun j => simR Z E n j) (fun j => E (ix2 j d)) μ)

end Cert.SoftAttend

end
-- ==== Proof.Blocks.lean ====
/-
  The four input blocks of a grid point, entry by entry, in terms of the two argument arrays `z` and `e`.
  The grid has 8 × 8 points; point `t` is row tile `t / 8` (1024 rows of `z`) and column tile `t % 8`
  (512 rows of `e`). Before the grid starts, the host side has written: the two arguments themselves (a change
  of float format, the identity on extended reals), the column of squared lengths of the rows of `z`, and the
  row of squared lengths of the rows of `e` (a sum over the 1024 entries of a row, from zero; the reshape of a
  column to a row keeps the order). So at point `t`:

    block 0 at (r, d) = z (1024 (t / 8) + r) d          block 2 at (r, 0) = |z_(1024 (t / 8) + r)|²
    block 1 at (j, d) = e (512 (t % 8) + j) d           block 3 at (0, j) = |e_(512 (t % 8) + j)|²
-/
import proofs.«163960_j71502615544486_2_alg».proof.Proof.Gen.KernelIdeal.Frame
import proofs.«163960_j71502615544486_2_alg».proof.Proof.Spec
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators

namespace Cert.KernelIdeal.Blocks
open Cert.KernelIdeal Cert.KernelIdeal.Gen Idealize.ShloMosaic.StableHlo Idealize.ShloMosaic.ValueIdx Cert.SoftAttend
variable (m : (ℓ : Loc nD τ sig) → Buf (Elt Ideal) ℓ)

/-- The first argument, as a function of its index. -/
abbrev zArr (c : Dev nD) : Zs.Idx → EReal := m ((c : Thread nD τ).loc main_arg0)
/-- The second argument, as a function of its index. -/
abbrev eArr (c : Dev nD) : Es.Idx → EReal := m ((c : Thread nD τ).loc main_arg1)

/-! ## What the host side wrote before the grid -/

theorem v0_apply (c : Dev nD) (i : S8192x1024.Idx) : (V m c main_v0 : S8192x1024.Idx → EReal) i = zArr m c i := by
  have e : (V m c main_v0 : S8192x1024.Idx → EReal) = fun i => zArr m c i := by
    dsimp only [Gen.V, Gen.hostOps0]; after_results <;> rfl
  rw [e]

theorem v1_apply (c : Dev nD) (i : S4096x1024.Idx) : (V m c main_v1 : S4096x1024.Idx → EReal) i = eArr m c i := by
  have e : (V m c main_v1 : S4096x1024.Idx → EReal) = fun i => eArr m c i := by
    dsimp only [Gen.V, Gen.hostOps0]; after_results <;> rfl
  rw [e]

/-- The host's sum of squares of row `a` of `z`. -/
theorem zRowSq (x : Zs.Idx → EReal) (a : Fin 8192) :
    Host.reduceAdd (F := Ideal) (mulf (F := Ideal) (φ := .f32) x x) (constant S_ .f32 0x00000000#32) reducesTo_S8192x1024_S8192_d1 h_S_ (ix1 a) = rowSq x a := by
  simp only [Host.reduceAdd, Ideal.hostReduceAdd_def]
  rw [Ideal.hostReduceAdd_single reducesTo_S8192x1024_S8192_d1 (by decide)]
  unfold rowSq
  refine congrArg (_ + ·) (Finset.sum_congr rfl fun k _ => ?_)
  exact congrArg (fun p => x p * x p) (funext fun b => Fin.ext (by match b with | ⟨0, _⟩ => rfl | ⟨1, _⟩ => rfl))

/-- The host's sum of squares of row `a` of `e`. -/
theorem eRowSq (x : Es.Idx → EReal) (a : Fin 4096) :
    Host.reduceAdd (F := Ideal) (mulf (F := Ideal) (φ := .f32) x x) (constant S_ .f32 0x00000000#32) reducesTo_S4096x1024_S4096_d1 h_S_ (ix1 a) = rowSq x a := by
  simp only [Host.reduceAdd, Ideal.hostReduceAdd_def]
  rw [Ideal.hostReduceAdd_single reducesTo_S4096x1024_S4096_d1 (by decide)]
  unfold rowSq
  refine congrArg (_ + ·) (Finset.sum_congr rfl fun k _ => ?_)
  exact congrArg (fun p => x p * x p) (funext fun b => Fin.ext (by match b with | ⟨0, _⟩ => rfl | ⟨1, _⟩ => rfl))

/-- The column of squared lengths of the rows of `z`. -/
theorem v4_apply (c : Dev nD) (n : Fin 8192) :
    (V m c main_v4 : S8192x1.Idx → EReal) (ix2 n (0 : Fin 1)) = rowSq (zArr m c) n := by
  have e : (V m c main_v4 : S8192x1.Idx → EReal) = broadcastInDim S8192x1 ![0] bcast_S8192_S8192x1_0
      (Host.reduceAdd (F := Ideal) (mulf (F := Ideal) (φ := .f32) (zArr m c) (zArr m c)) (constant S_ .f32 0x00000000#32) reducesTo_S8192x1024_S8192_d1 h_S_) := by
    dsimp only [Gen.V, Gen.hostOps0]; after_results <;> rfl
  rw [e]
  refine (broadcastInDim_apply _ bcast_S8192_S8192x1_0 _ (ix2 n (0 : Fin 1)) (ix1 n) (fun a => match a with
    | ⟨0, _⟩ => by show n.val = if (8192 : Nat) = 1 then 0 else n.val; rw [if_neg (by decide)])).trans ?_
  exact zRowSq (zArr m c) n

/-- The row of squared lengths of the rows of `e`. -/
theorem v8_apply (c : Dev nD) (n : Fin 4096) :
    (V m c main_v8 : S1x4096.Idx → EReal) (ix2 (0 : Fin 1) n) = rowSq (eArr m c) n := by
  have e : (V m c main_v8 : S1x4096.Idx → EReal) = shapeCast S1x4096 (broadcastInDim S4096x1 ![0] bcast_S4096_S4096x1_0
      (Host.reduceAdd (F := Ideal) (mulf (F := Ideal) (φ := .f32) (eArr m c) (eArr m c)) (constant S_ .f32 0x00000000#32) reducesTo_S4096x1024_S4096_d1 h_S_))
      shapeCasts_S4096x1_S1x4096 := by
    dsimp only [Gen.V, Gen.hostOps0]; after_results <;> rfl
  rw [e]
  refine (shapeCast_apply _ shapeCasts_S4096x1_S1x4096 (ix2 (0 : Fin 1) n) (ix2 n (0 : Fin 1)) ?_).trans ?_
  · rw [Shape.rowMajor_val_two, Shape.rowMajor_val_two]
    show n.val * 1 + 0 = 0 * 4096 + n.val
    omega
  refine (broadcastInDim_apply _ bcast_S4096_S4096x1_0 _ (ix2 n (0 : Fin 1)) (ix1 n) (fun a => match a with
    | ⟨0, _⟩ => by show n.val = if (4096 : Nat) = 1 then 0 else n.val; rw [if_neg (by decide)])).trans ?_
  exact eRowSq (eArr m c) n

/-! ## The block indices of the windows, decided over the 64 points -/

theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8
    ∧ win0_5.index t (0 : Fin 2) = t.val / 8 ∧ win0_5.index t (1 : Fin 2) = 0 :=
  (by decide +kernel : ∀ t : Fin grid0.N, _)

/-! ## The input blocks at an entry -/

theorem blk0_apply (c : Dev nD) (t : Fin cfg0.N) (r : Fin 1024) (d : Fin 1024) (hn : 1024 * (t.val / 8) + r.val < 8192) :
    (iblk m c 0 t : Vec Ideal S1024x1024 .bf16) (ix2 r d) = zArr m c (ix2 ⟨1024 * (t.val / 8) + r.val, hn⟩ d) := by
  obtain ⟨e0, e1, -⟩ := idx_facts t
  unfold iblk
  rw [View.read_apply]
  show (V m c main_v0 : S8192x1024.Idx → EReal) (((cfg0.win 0).blk t).view.emb (ix2 r d)) = _
  rw [v0_apply]
  refine congrArg (zArr m c) (funext fun a => Fin.ext ?_)
  match a with
  | ⟨0, _⟩ => show win0_0.index t (0 : Fin 2) * 1024 + 1 * r.val = 1024 * (t.val / 8) + r.val; rw [e0]; omega
  | ⟨1, _⟩ => show win0_0.index t (1 : Fin 2) * 1024 + 1 * d.val = d.val; rw [e1]; omega

theorem blk1_apply (c : Dev nD) (t : Fin cfg0.N) (j : Fin 512) (d : Fin 1024) (hj : 512 * (t.val % 8) + j.val < 4096) :
    (iblk m c 1 t : Vec Ideal S512x1024 .bf16) (ix2 j d) = eArr m c (ix2 ⟨512 * (t.val % 8) + j.val, hj⟩ d) := by
  obtain ⟨-, -, e0, e1, -⟩ := idx_facts t
  unfold iblk
  rw [View.read_apply]
  show (V m c main_v1 : S4096x1024.Idx → EReal) (((cfg0.win 1).blk t).view.emb (ix2 j d)) = _
  rw [v1_apply]
  refine congrArg (eArr m c) (funext fun a => Fin.ext ?_)
  match a with
  | ⟨0, _⟩ => show win0_1.index t (0 : Fin 2) * 512 + 1 * j.val = 512 * (t.val % 8) + j.val; rw [e0]; omega
  | ⟨1, _⟩ => show win0_1.index t (1 : Fin 2) * 1024 + 1 * d.val = d.val; rw [e1]; omega

theorem blk2_apply (c : Dev nD) (t : Fin cfg0.N) (r : Fin 1024) (hn : 1024 * (t.val / 8) + r.val < 8192) :
    (iblk m c 2 t : Vec Ideal S1024x1 .f32) (ix2 r (0 : Fin 1)) = rowSq (zArr m c) ⟨1024 * (t.val / 8) + r.val, hn⟩ := by
  obtain ⟨-, -, -, -, e0, e1, -⟩ := idx_facts t
  unfold iblk
  rw [View.read_apply]
  show (V m c main_v4 : S8192x1.Idx → EReal) (((cfg0.win 2).blk t).view.emb (ix2 r (0 : Fin 1))) = _
  rw [← v4_apply]
  refine congrArg (V m c main_v4 : S8192x1.Idx → EReal) (funext fun a => Fin.ext ?_)
  match a with
  | ⟨0, _⟩ => show win0_2.index t (0 : Fin 2) * 1024 + 1 * r.val = 1024 * (t.val / 8) + r.val; rw [e0]; omega
  | ⟨1, _⟩ => show win0_2.index t (1 : Fin 2) * 1 + 1 * 0 = 0; rw [e1]

theorem blk3_apply (c : Dev nD) (t : Fin cfg0.N) (j : Fin 512) (hj : 512 * (t.val % 8) + j.val < 4096) :
    (iblk m c 3 t : Vec Ideal S1x512 .f32) (ix2 (0 : Fin 1) j) = rowSq (eArr m c) ⟨512 * (t.val % 8) + j.val, hj⟩ := by
  obtain ⟨-, -, -, -, -, -, e0, e1, -⟩ := idx_facts t
  unfold iblk
  rw [View.read_apply]
  show (V m c main_v8 : S1x4096.Idx → EReal) (((cfg0.win 3).blk t).view.emb (ix2 (0 : Fin 1) j)) = _
  rw [← v8_apply]
  refine congrArg (V m c main_v8 : S1x4096.Idx → EReal) (funext fun a => Fin.ext ?_)
  match a with
  | ⟨0, _⟩ => show win0_3.index t (0 : Fin 2) * 1 + 1 * 0 = 0; rw [e0]
  | ⟨1, _⟩ => show win0_3.index t (1 : Fin 2) * 512 + 1 * j.val = 512 * (t.val % 8) + j.val; rw [e1]; omega

end Cert.KernelIdeal.Blocks

end
-- ==== Proof.RowExt.lean ====
/-
  The similarities and the rows of `e` indexed by plain naturals (zero outside the arrays), so that a grid
  point's contribution to a running sum can be written for every natural point number: the contribution of
  point `n` to row `1024 (n / 8) + r` is a sum over the 512 columns `512 (n % 8) + jj`.
-/
import proofs.«163960_j71502615544486_2_alg».proof.Proof.Spec

noncomputable section

open scoped BigOperators

namespace Cert.SoftAttend

open Idealize.ShloMosaic Idealize.ShloMosaic.ValueIdx

/-- `sim z e n p` for naturals `n < 8192`, `p < 4096`; zero elsewhere. -/
def simN (z : Zs.Idx → EReal) (e : Es.Idx → EReal) (n p : ℕ) : EReal :=
  if h : n < 8192 ∧ p < 4096 then sim z e ⟨n, h.1⟩ ⟨p, h.2⟩ else 0

/-- `e p d` for naturals `p < 4096`, `d < 1024`; zero elsewhere. -/
def eN (e : Es.Idx → EReal) (p d : ℕ) : EReal :=
  if h : p < 4096 ∧ d < 1024 then e (ix2 ⟨p, h.1⟩ ⟨d, h.2⟩) else 0

theorem simN_of_lt (z : Zs.Idx → EReal) (e : Es.Idx → EReal) (n p : ℕ) (hn : n < 8192) (hp : p < 4096) :
    simN z e n p = sim z e ⟨n, hn⟩ ⟨p, hp⟩ := dif_pos ⟨hn, hp⟩

theorem eN_of_lt (e : Es.Idx → EReal) (p d : ℕ) (hp : p < 4096) (hd : d < 1024) :
    eN e p d = e (ix2 ⟨p, hp⟩ ⟨d, hd⟩) := dif_pos ⟨hp, hd⟩

/-- Point `n`'s contribution to the normaliser of local row `r`. -/
def sumPart (z : Zs.Idx → EReal) (e : Es.Idx → EReal) (n r : ℕ) : EReal :=
  ∑ jj : Fin 512, Ideal.exp (simN z e (1024 * (n / 8) + r) (512 * (n % 8) + jj.val))

/-- Point `n`'s contribution to the weighted rows at local row `r`, column `d`. -/
def accPart (z : Zs.Idx → EReal) (e : Es.Idx → EReal) (n r d : ℕ) : EReal :=
  ∑ jj : Fin 512, Ideal.exp (simN z e (1024 * (n / 8) + r) (512 * (n % 8) + jj.val)) * eN e (512 * (n % 8) + jj.val) d

end Cert.SoftAttend

end
-- ==== Proof.PointValue.lean ====
/-
  One grid point, and one row of the grid, in terms of `z` and `e`.

  At point `t` (row tile `t / 8`, column tile `t % 8`) the body's similarity term at `(r, j)` is
  `sim z e (1024 (t / 8) + r) (512 (t % 8) + j)`. The normaliser buffer restarts at the first point of a row
  of the grid from zero plus that point's row sums of `exp (sim)`, and every later point of the row adds its
  own row sums to what the point before left; likewise the weighted-rows buffer with the products
  `exp (sim) * e`. So after the point at offset `k` in its row of the grid both buffers hold zero plus the sum
  of the contributions of the points at offsets `0 … k`.
-/
import proofs.«163960_j71502615544486_2_alg».proof.Proof.Gen.KernelIdeal.Value
import proofs.«163960_j71502615544486_2_alg».proof.Proof.Pieces
import proofs.«163960_j71502615544486_2_alg».proof.Proof.Payload
import proofs.«163960_j71502615544486_2_alg».proof.Proof.Blocks
import proofs.«163960_j71502615544486_2_alg».proof.Proof.RowExt
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators

namespace Cert.KernelIdeal.Point
open Cert.KernelIdeal Cert.KernelIdeal.Gen Cert.KernelIdeal.Value Cert.KernelIdeal.Blocks Idealize.ShloMosaic.ValueIdx Cert.SoftAttend
variable (m : (ℓ : Loc nD τ sig) → Buf (Elt Ideal) ℓ)

theorem row_lt (t : Fin cfg0.N) (r : Fin 1024) : 1024 * (t.val / 8) + r.val < 8192 := by
  have h := t.isLt; have hN : cfg0.N = 64 := N_0; have hr := r.isLt; omega

theorem col_lt (t : Fin cfg0.N) (j : Fin 512) : 512 * (t.val % 8) + j.val < 4096 := by
  have hj := j.isLt; omega

/-- The similarity term of point `t` at `(r, j)`. -/
theorem simPoint (c : Dev nD) (t : Fin cfg0.N) (r : Fin 1024) (j : Fin 512) :
    k0_pay6 (F := Ideal) (iblk m c 0 t) (iblk m c 1 t) (iblk m c 2 t) (iblk m c 3 t) (ix2 r j)
      = simN (zArr m c) (eArr m c) (1024 * (t.val / 8) + r.val) (512 * (t.val % 8) + j.val) := by
  rw [simN_of_lt _ _ _ _ (row_lt t r) (col_lt t j)]
  refine (Payload.sim_apply (iblk m c 0 t) (iblk m c 1 t) (iblk m c 2 t) (iblk m c 3 t) r j).trans ?_
  rw [blk2_apply m c t r (row_lt t r), blk3_apply m c t j (col_lt t j)]
  unfold sim dist2
  have h0 : ∀ d : Fin 1024, (iblk m c 0 t : Vec Ideal S1024x1024 .bf16) (ix2 r d) = zArr m c (ix2 ⟨1024 * (t.val / 8) + r.val, row_lt t r⟩ d) :=
    fun d => blk0_apply m c t r d (row_lt t r)
  have h1 : ∀ d : Fin 1024, (iblk m c 1 t : Vec Ideal S512x1024 .bf16) (ix2 j d) = eArr m c (ix2 ⟨512 * (t.val % 8) + j.val, col_lt t j⟩ d) :=
    fun d => blk1_apply m c t j d (col_lt t j)
  simp only [h0, h1]

theorem col_eq (y : S1024x1.Idx) : y = ix2 (y 0) (0 : Fin 1) :=
  (eq_ix2 y).trans (congrArg (fun b : Fin 1 => ix2 (y 0) b) (Subsingleton.elim _ _))

/-! ## The normaliser buffer, point by point -/

theorem sumFirst_apply (c : Dev nD) (n : ℕ) (hb : n < cfg0.N) (h0 : n % 8 = 0) (acc : Vec Ideal S1024x1 .f32) (y : S1024x1.Idx) :
    scAt0_1 m c n hb acc y = Ideal.ofBits .f32 0x00000000#32 + sumPart (zArr m c) (eArr m c) n (y 0).val := by
  have h1 : ¬n % 8 = 7 := by omega
  unfold scAt0_1
  rw [dif_pos h0, dif_neg h1, Pieces.sumFirst, col_eq y]
  refine (Payload.sumStep_apply _ _ _ _ _ (y 0)).trans ?_
  rw [Payload.zeroSum_apply]
  unfold sumPart
  refine congrArg (_ + ·) (Finset.sum_congr rfl fun j _ => ?_)
  exact congrArg Ideal.exp (simPoint m c ⟨n, hb⟩ (y 0) j)

theorem sumNext_apply (c : Dev nD) (n : ℕ) (hb : n < cfg0.N) (h0 : ¬n % 8 = 0) (acc : Vec Ideal S1024x1 .f32) (y : S1024x1.Idx) :
    scAt0_1 m c n hb acc y = acc y + sumPart (zArr m c) (eArr m c) n (y 0).val := by
  unfold scAt0_1
  rw [dif_neg h0]
  by_cases h1 : n % 8 = 7
  · rw [dif_pos h1, Pieces.sumNext_C]
    conv_lhs => rw [col_eq y]
    conv_rhs => rw [col_eq y]
    refine (Payload.sumStep_apply _ _ _ _ _ (y 0)).trans ?_
    unfold sumPart
    refine congrArg (_ + ·) (Finset.sum_congr rfl fun j _ => ?_)
    exact congrArg Ideal.exp (simPoint m c ⟨n, hb⟩ (y 0) j)
  · rw [dif_neg h1, Pieces.sumNext_B]
    conv_lhs => rw [col_eq y]
    conv_rhs => rw [col_eq y]
    refine (Payload.sumStep_apply _ _ _ _ _ (y 0)).trans ?_
    unfold sumPart
    refine congrArg (_ + ·) (Finset.sum_congr rfl fun j _ => ?_)
    exact congrArg Ideal.exp (simPoint m c ⟨n, hb⟩ (y 0) j)

/-! ## The weighted-rows buffer, point by point -/

/-- The products of this point at `(r, d)`, in terms of `z` and `e`. -/
theorem accSum (c : Dev nD) (t : Fin cfg0.N) (r d : Fin 1024) :
    (∑ j : Fin 512, Ideal.exp (k0_pay6 (F := Ideal) (iblk m c 0 t) (iblk m c 1 t) (iblk m c 2 t) (iblk m c 3 t) (ix2 r j))
        * (iblk m c 1 t : Vec Ideal S512x1024 .bf16) (ix2 j d))
      = accPart (zArr m c) (eArr m c) t.val r.val d.val := by
  unfold accPart
  refine Finset.sum_congr rfl fun j _ => ?_
  rw [simPoint m c t r j, blk1_apply m c t j d (col_lt t j), eN_of_lt _ _ _ (col_lt t j) d.isLt]

theorem accFirst_apply (c : Dev nD) (n : ℕ) (hb : n < cfg0.N) (h0 : n % 8 = 0) (acc : Vec Ideal S1024x1024 .f32) (y : S1024x1024.Idx) :
    scAt0_0 m c n hb acc y = Ideal.ofBits .f32 0x00000000#32 + accPart (zArr m c) (eArr m c) n (y 0).val (y 1).val := by
  have h1 : ¬n % 8 = 7 := by omega
  unfold scAt0_0
  rw [dif_pos h0, dif_neg h1, Pieces.accFirst, eq_ix2 y]
  refine (Payload.accStep_apply _ _ _ _ _ (y 0) (y 1)).trans ?_
  rw [Payload.zeroAcc_apply]
  exact congrArg (_ + ·) (accSum m c ⟨n, hb⟩ (y 0) (y 1))

theorem accNext_apply (c : Dev nD) (n : ℕ) (hb : n < cfg0.N) (h0 : ¬n % 8 = 0) (acc : Vec Ideal S1024x1024 .f32) (y : S1024x1024.Idx) :
    scAt0_0 m c n hb acc y = acc y + accPart (zArr m c) (eArr m c) n (y 0).val (y 1).val := by
  unfold scAt0_0
  rw [dif_neg h0]
  by_cases h1 : n % 8 = 7
  · rw [dif_pos h1, Pieces.accNext_C]
    conv_lhs => rw [eq_ix2 y]
    conv_rhs => rw [eq_ix2 y]
    refine (Payload.accStep_apply _ _ _ _ _ (y 0) (y 1)).trans ?_
    exact congrArg (_ + ·) (accSum m c ⟨n, hb⟩ (y 0) (y 1))
  · rw [dif_neg h1, Pieces.accNext_B]
    conv_lhs => rw [eq_ix2 y]
    conv_rhs => rw [eq_ix2 y]
    refine (Payload.accStep_apply _ _ _ _ _ (y 0) (y 1)).trans ?_
    exact congrArg (_ + ·) (accSum m c ⟨n, hb⟩ (y 0) (y 1))

/-! ## Both buffers after any point: zero plus the contributions of the row's points so far -/

theorem sumAt (c : Dev nD) (t : Fin cfg0.N) (y : S1024x1.Idx) :
    (outsAt0 m c t.val t.isLt).2.2.2 y
      = Ideal.ofBits .f32 0x00000000#32
        + ∑ s ∈ Finset.range (t.val % 8 + 1), sumPart (zArr m c) (eArr m c) (8 * (t.val / 8) + s) (y 0).val := by
  rw [soutsAt0_1_eq m c t]
  exact Pipeline.accAt_add_apply (fun n h => scAt0_1 m c n h (VS0_1.read (Elt Ideal) VS0_1.junk)) (scAt0_1 m c)
    (fun _ => Ideal.ofBits .f32 0x00000000#32) (fun n (i : S1024x1.Idx) => sumPart (zArr m c) (eArr m c) n (i 0).val)
    (8 * (t.val / 8)) 7
    (fun h i => sumFirst_apply m c _ h (by omega) _ i)
    (fun n h acc i hlt hle => sumNext_apply m c n h (by omega) acc i)
    (t.val % 8) (by omega) _ y

theorem accAt (c : Dev nD) (t : Fin cfg0.N) (y : S1024x1024.Idx) :
    (outsAt0 m c t.val t.isLt).2.2.1 y
      = Ideal.ofBits .f32 0x00000000#32
        + ∑ s ∈ Finset.range (t.val % 8 + 1), accPart (zArr m c) (eArr m c) (8 * (t.val / 8) + s) (y 0).val (y 1).val := by
  rw [soutsAt0_0_eq m c t]
  exact Pipeline.accAt_add_apply (fun n h => scAt0_0 m c n h (VS0_0.read (Elt Ideal) VS0_0.junk)) (scAt0_0 m c)
    (fun _ => Ideal.ofBits .f32 0x00000000#32) (fun n (i : S1024x1024.Idx) => accPart (zArr m c) (eArr m c) n (i 0).val (i 1).val)
    (8 * (t.val / 8)) 7
    (fun h i => accFirst_apply m c _ h (by omega) _ i)
    (fun n h acc i hlt hle => accNext_apply m c n h (by omega) acc i)
    (t.val % 8) (by omega) _ y

/-! ## What the points leave in the two outputs' buffers -/

/-- Every point leaves its similarity term in the first output's buffer. -/
theorem out4_eq (c : Dev nD) (t : Fin cfg0.N) :
    (outsAt0 m c t.val t.isLt).1 = k0_pay6 (F := Ideal) (iblk m c 0 t) (iblk m c 1 t) (iblk m c 2 t) (iblk m c 3 t) := by
  by_cases h0 : t.val % 8 = 0
  · have h1 : ¬t.val % 8 = 7 := by omega
    rw [outsAt0_A m c t h0 h1]; dsimp only; rw [Pieces.simBlock_A]
  · by_cases h1 : t.val % 8 = 7
    · rw [outsAt0_C m c t h0 h1]; dsimp only; rw [Pieces.simBlock_C]
    · rw [outsAt0_B m c t h0 h1]; dsimp only; rw [Pieces.simBlock_B]

/-- The last point of a row of the grid leaves, in the second output's buffer, the quotient of the two
    carried buffers as it leaves them. -/
theorem out5_last (c : Dev nD) (t : Fin cfg0.N) (h1 : t.val % 8 = 7) :
    (outsAt0 m c t.val t.isLt).2.1
      = k0_pay2 (F := Ideal) (outsAt0 m c t.val t.isLt).2.2.1 (outsAt0 m c t.val t.isLt).2.2.2 := by
  have h0 : ¬t.val % 8 = 0 := by omega
  rw [outsAt0_C m c t h0 h1]
  dsimp only
  rw [Pieces.quotient_C, Pieces.accNext_C, Pieces.sumNext_C]

end Cert.KernelIdeal.Point

end
-- ==== Proof.BlockSums.lean ====
/-
  ONE ROW OF THE GRID COVERS ONE ROW OF SIMILARITIES. The eight consecutive points `8 q, …, 8 q + 7` all belong to
  row block `q` (`(8 q + s) / 8 = q`) and point `8 q + s` contributes the 512 consecutive columns
  `512 s, …, 512 s + 511` (`(8 q + s) % 8 = s`). As `s` runs over `0 … 7` and `jj` over `0 … 511`, the column
  `512 s + jj` runs once over `0 … 4095`, so the eight contributions add up to the sum over the whole row: of the
  exponentials of the similarities (`normaliser_blocks`) and of those exponentials times a column of `e`
  (`weighted_blocks`).
-/
import proofs.«163960_j71502615544486_2_alg».proof.Proof.RowExt

noncomputable section

open scoped BigOperators

namespace Cert.SoftAttend.BlockSums

open Idealize.ShloMosaic Idealize.ShloMosaic.ValueIdx Cert.LibRealSums Cert.SoftAttend

/-- A sum over the 4096 columns of a function of the column's number is the sum over eight blocks of 512 columns. -/
theorem sum_cols_blocks (g : ℕ → EReal) :
    ∑ j : Fin 4096, g j.val = ∑ s ∈ Finset.range 8, ∑ jj : Fin 512, g (512 * s + jj.val) := by
  rw [sum_range_eq_fin 8 (fun s => ∑ jj : Fin 512, g (512 * s + jj.val))]
  exact sum_fin_blocks 8 512 g

/-- For `s < 8` the point `8 q + s` lies in row block `q` at position `s`. -/
theorem point_div_mod (q s : ℕ) (hs : s < 8) : (8 * q + s) / 8 = q ∧ (8 * q + s) % 8 = s := by
  constructor <;> omega

/-- The eight points of row block `q` together contribute the whole row's normaliser. -/
theorem normaliser_blocks (z : Zs.Idx → EReal) (e : Es.Idx → EReal) (q r : ℕ) (hn : 1024 * q + r < 8192) :
    ∑ s ∈ Finset.range 8, sumPart z e (8 * q + s) r
      = ∑ j : Fin 4096, Ideal.exp (sim z e ⟨1024 * q + r, hn⟩ j) := by
  have hR : (∑ j : Fin 4096, Ideal.exp (sim z e ⟨1024 * q + r, hn⟩ j))
      = ∑ j : Fin 4096, (fun p : ℕ => Ideal.exp (simN z e (1024 * q + r) p)) j.val :=
    Finset.sum_congr rfl fun j _ => (congrArg Ideal.exp (simN_of_lt z e _ _ hn j.isLt)).symm
  refine Eq.trans ?_ (hR.trans (sum_cols_blocks fun p : ℕ => Ideal.exp (simN z e (1024 * q + r) p))).symm
  refine Finset.sum_congr rfl fun s hs => ?_
  obtain ⟨h1, h2⟩ := point_div_mod q s (Finset.mem_range.1 hs)
  unfold sumPart
  rw [h1, h2]

/-- The eight points of row block `q` together contribute the whole row's weighted sum at column `d`. -/
theorem weighted_blocks (z : Zs.Idx → EReal) (e : Es.Idx → EReal) (q r : ℕ) (hn : 1024 * q + r < 8192) (d : Fin 1024) :
    ∑ s ∈ Finset.range 8, accPart z e (8 * q + s) r d.val
      = ∑ j : Fin 4096, Ideal.exp (sim z e ⟨1024 * q + r, hn⟩ j) * e (ix2 j d) := by
  have hR : (∑ j : Fin 4096, Ideal.exp (sim z e ⟨1024 * q + r, hn⟩ j) * e (ix2 j d))
      = ∑ j : Fin 4096, (fun p : ℕ => Ideal.exp (simN z e (1024 * q + r) p) * eN e p d.val) j.val :=
    Finset.sum_congr rfl fun j _ => by
      show _ = Ideal.exp (simN z e (1024 * q + r) j.val) * eN e j.val d.val
      rw [simN_of_lt z e _ _ hn j.isLt, eN_of_lt e _ _ j.isLt d.isLt]
  refine Eq.trans ?_ (hR.trans (sum_cols_blocks fun p : ℕ => Ideal.exp (simN z e (1024 * q + r) p) * eN e p d.val)).symm
  refine Finset.sum_congr rfl fun s hs => ?_
  obtain ⟨h1, h2⟩ := point_div_mod q s (Finset.mem_range.1 hs)
  unfold accPart
  rw [h1, h2]

end Cert.SoftAttend.BlockSums

end
-- ==== Proof.Arrays.lean ====
/-
  The two result arrays after the whole grid, as functions of `z` and `e`.

  First result: point `t` writes back its similarity block, which is the restriction of
  `(n, j) ↦ sim z e n j` to rows `1024 (t / 8) …` and columns `512 (t % 8) …`; the 64 blocks tile the array
  (entry `(n, j)` lies in the block of point `8 (n / 1024) + j / 512`).

  Second result: only the last point of each row of the grid writes back, and what it writes is the quotient
  of the two carried buffers, which by then hold zero plus the contributions of all eight points of the row:
  the sums over all 4096 columns. That is the restriction of `(n, d) ↦ wK z e n d` to rows
  `1024 (t / 8) …`; the eight blocks tile the array (entry `(n, d)` lies in the block of point
  `8 (n / 1024) + 7`).
-/
import proofs.«163960_j71502615544486_2_alg».proof.Proof.PointValue
import proofs.«163960_j71502615544486_2_alg».proof.Proof.BlockSums
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators

namespace Cert.KernelIdeal.Arrays
open Cert.KernelIdeal Cert.KernelIdeal.Gen Cert.KernelIdeal.Value Cert.KernelIdeal.Blocks Cert.KernelIdeal.Point
open Idealize.ShloMosaic.ValueIdx Cert.SoftAttend
variable (m : (ℓ : Loc nD τ sig) → Buf (Elt Ideal) ℓ) (ρ : Dev nD → PrngReg)

/-- The first result as one function of its index. -/
abbrev simArr (z : Zs.Idx → EReal) (e : Es.Idx → EReal) : S8192x4096.Idx → EReal := fun i => sim z e (i 0) (i 1)
/-- The second result as one function of its index. -/
abbrev wArr (z : Zs.Idx → EReal) (e : Es.Idx → EReal) : S8192x1024.Idx → EReal := fun i => wK z e (i 0) (i 1)

/-! ## The first result -/

theorem flushed4_eq (c : Dev nD) (t : Fin cfg0.N) :
    (dats m 0 c).flushed 4 t = ((cfg0.win 4).blk t).view.read (Elt Ideal) (simArr (zArr m c) (eArr m c)) := by
  obtain ⟨-, -, -, -, -, -, -, -, e0, e1, -⟩ := idx_facts t
  rw [flushed4, out4_eq]
  refine funext fun (y : S1024x512.Idx) => ?_
  show k0_pay6 (F := Ideal) (iblk m c 0 t) (iblk m c 1 t) (iblk m c 2 t) (iblk m c 3 t) y
    = simArr (zArr m c) (eArr m c) (((cfg0.win 4).blk t).view.emb y)
  obtain ⟨r, j, rfl⟩ : ∃ (r : Fin 1024) (j : Fin 512), y = ix2 r j := ⟨y 0, y 1, eq_ix2 y⟩
  rw [simPoint m c t r j, simN_of_lt _ _ _ _ (row_lt t r) (col_lt t j)]
  refine congrArg₂ (sim (zArr m c) (eArr m c)) (Fin.ext ?_) (Fin.ext ?_)
  · show 1024 * (t.val / 8) + r.val = win0_4.index t (0 : Fin 2) * 1024 + 1 * r.val
    rw [e0]; omega
  · show 512 * (t.val % 8) + j.val = win0_4.index t (1 : Fin 2) * 512 + 1 * j.val
    rw [e1]; omega

theorem mem_blk4 (t : Fin cfg0.N) (i : S8192x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v9_0).slice (win0_4.rect t)).set ↔ _
  rw [View.set_slice_whole, Rect.mem_set_unit]
  exact Iff.rfl

theorem cover4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 64 := N_0
  obtain ⟨t, ht⟩ : ∃ t : Fin cfg0.N, t.val = 8 * ((i 0).val / 1024) + (i 1).val / 512 :=
    ⟨⟨8 * ((i 0).val / 1024) + (i 1).val / 512, by rw [hN]; omega⟩, rfl⟩
  obtain ⟨-, -, -, -, -, -, -, -, e0, e1, -⟩ := idx_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 512 ≤ (i 1).val ∧ (i 1).val < win0_4.index t (1 : Fin 2) * 512 + 512
    rw [e1, ht]; omega

theorem final4 (c : Dev nD) : (dats m 0 c).arrAt 4 cfg0.N = simArr (zArr m c) (eArr m c) :=
  (dats m 0 c).arrAt_eq_of_cover 4 (simArr (zArr m c) (eArr m c)) (fun t _ => flushed4_eq m c t) cover4

/-! ## The second result -/

/-- What the last point of a row of the grid leaves in the second output's buffer, at `(r, d)`. -/
theorem weightedEntry (c : Dev nD) (t : Fin cfg0.N) (h1 : t.val % 8 = 7) (r d : Fin 1024) :
    (outsAt0 m c t.val t.isLt).2.1 (ix2 r d) = wK (zArr m c) (eArr m c) ⟨1024 * (t.val / 8) + r.val, row_lt t r⟩ d := by
  rw [out5_last m c t h1]
  refine (Payload.quot_apply _ _ r d).trans ?_
  rw [accAt m c t (ix2 r d), sumAt m c t (ix2 r (0 : Fin 1)), h1]
  show Ideal.div (_ + ∑ s ∈ Finset.range 8, accPart (zArr m c) (eArr m c) (8 * (t.val / 8) + s) r.val d.val)
      (_ + ∑ s ∈ Finset.range 8, sumPart (zArr m c) (eArr m c) (8 * (t.val / 8) + s) r.val) = _
  rw [BlockSums.weighted_blocks _ _ _ _ (row_lt t r) d, BlockSums.normaliser_blocks _ _ _ _ (row_lt t r)]
  rfl

theorem flushed5_eq (c : Dev nD) (t : Fin cfg0.N) (hf : (cfg0.win 5).flush t = true) :
    (dats m 0 c).flushed 5 t = ((cfg0.win 5).blk t).view.read (Elt Ideal) (wArr (zArr m c) (eArr m c)) := by
  have h1 : t.val % 8 = 7 := (flush0_5 t).mp hf
  obtain ⟨-, -, -, -, -, -, -, -, -, -, e0, e1⟩ := idx_facts t
  rw [flushed5]
  refine funext fun (y : S1024x1024.Idx) => ?_
  show (outsAt0 m c t.val t.isLt).2.1 y = wArr (zArr m c) (eArr m c) (((cfg0.win 5).blk t).view.emb y)
  obtain ⟨r, d, rfl⟩ : ∃ (r : Fin 1024) (d : Fin 1024), y = ix2 r d := ⟨y 0, y 1, eq_ix2 y⟩
  rw [weightedEntry m c t h1 r d]
  refine congrArg₂ (wK (zArr m c) (eArr m c)) (Fin.ext ?_) (Fin.ext ?_)
  · show 1024 * (t.val / 8) + r.val = win0_5.index t (0 : Fin 2) * 1024 + 1 * r.val
    rw [e0]; omega
  · show d.val = win0_5.index t (1 : Fin 2) * 1024 + 1 * d.val
    rw [e1]; omega

theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v9_1).slice (win0_5.rect t)).set ↔ _
  rw [View.set_slice_whole, Rect.mem_set_unit]
  exact Iff.rfl

theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 64 := N_0
  obtain ⟨t, ht⟩ : ∃ t : Fin cfg0.N, t.val = 8 * ((i 0).val / 1024) + 7 :=
    ⟨⟨8 * ((i 0).val / 1024) + 7, by rw [hN]; omega⟩, rfl⟩
  obtain ⟨-, -, -, -, -, -, -, -, -, -, e0, e1⟩ := idx_facts t
  refine ⟨t, (flush0_5 t).mpr (by rw [ht]; omega), ?_⟩
  rw [mem_blk5]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 1024 ≤ (i 1).val ∧ (i 1).val < win0_5.index t (1 : Fin 2) * 1024 + 1024
    rw [e1]; omega

theorem final5 (c : Dev nD) : (dats m 0 c).arrAt 5 cfg0.N = wArr (zArr m c) (eArr m c) :=
  (dats m 0 c).arrAt_eq_of_cover 5 (wArr (zArr m c) (eArr m c)) (flushed5_eq m c) cover5

/-! ## The run, read -/

/-- Every run of the idealized program ends with the two results at these functions of its arguments,
    the arguments unchanged. -/
theorem run : θ_run defs (onTc (τ := τ) (main (F := Ideal))) ⟨m, fun _ => 0, ρ⟩ fun r => ∀ c : Dev nD,
      r.2.mem ((c : Thread nD τ).loc main_v9_0) = simArr (zArr m c) (eArr m c)
      ∧ r.2.mem ((c : Thread nD τ).loc main_v9_1) = wArr (zArr m c) (eArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final4 m c), (h c).2.1.trans (final5 m c), (h c).2.2.1, (h c).2.2.2⟩)
    (Cert.KernelIdeal.Value.run_blocks m ρ)

end Cert.KernelIdeal.Arrays

end
-- ==== Proof.RefValue.lean ====
/-
  THE REFERENCE PROGRAM READ AS THE MATHEMATICS. The reference's two results, read one element at a time from the
  generated index lemmas, are the similarity `sim` and the softmax-weighted average `wRef` of the specification:

  * the first result at (n, j) is `exp ((-dist2 n j) / 2)`, where `dist2` is built from the two rows' squared lengths
    and their inner product exactly as the specification spells it (`sim_eq`);
  * the row maximum the softmax subtracts is a maximum taken from `-∞` over the 4096 similarities of the row, and
    once more against `-∞` (`rowMax_eq`);
  * the second result at (n, d) is the sum over j of the shifted exponential divided by the row's sum of shifted
    exponentials, times `e j d` (`weighted_eq`).
-/
import proofs.«163960_j71502615544486_2_alg».proof.Proof.Gen.ReferenceIdeal.Read
import proofs.«163960_j71502615544486_2_alg».proof.Proof.Spec

noncomputable section

open scoped BigOperators

namespace Cert.ReferenceIdeal.RefValue

open Cert.ReferenceIdeal Cert.ReferenceIdeal.Gen Idealize.ShloMosaic Idealize.ShloMosaic.ValueIdx Cert.ReferenceIdeal.Read

/-- The first result of the reference is the similarity of the specification. -/
theorem sim_eq (z : (⟨S8192x1024, .f32⟩ : BufTy).Contents (Elt Ideal)) (e : (⟨S4096x1024, .f32⟩ : BufTy).Contents (Elt Ideal)) :
    Read.val_main_v19 (F := Ideal) z e = fun i => Cert.SoftAttend.sim z e (i 0) (i 1) := by
  funext i
  obtain ⟨n, j, rfl⟩ : ∃ (n : Fin 8192) (j : Fin 4096), i = ix2 n j := ⟨i 0, i 1, eq_ix2 i⟩
  simp only [val_main_v19_apply, val_main_v18_apply, val_main_v16_apply, val_main_v15_apply, val_main_v13_apply,
    val_main_v8_apply, val_main_v6_apply, val_main_v7_apply, val_main_v2_apply, val_main_v5_apply, val_main_v1_apply,
    val_main_v4_apply, val_main_v0_apply, val_main_v3_apply, val_main_v12_apply, val_main_v11_apply, val_main_v10_apply,
    val_main_v9_apply, val_main_v17_apply, val_main_v14_apply, val_main_cst_apply, val_main_cst_0_apply,
    val_main_cst_1_apply, val_main_cst_2_apply, val_main_cst_3_apply]
  have h1 : ∀ k : Fin 1024, idx_main_v1 (idx_main_v2 (idx_main_v6 (ix2 n j))) k = ix2 n k := fun k =>
    funext fun a => Fin.ext (by match a with | ⟨0, _⟩ => rfl | ⟨1, _⟩ => rfl)
  have h2 : ∀ k : Fin 1024, idx_main_v4 (idx_main_v5 (idx_main_v7 (ix2 n j))) k = ix2 j k := fun k =>
    funext fun a => Fin.ext (by match a with | ⟨0, _⟩ => rfl | ⟨1, _⟩ => rfl)
  have h3 : ∀ k : Fin 1024, lidx_main_v10 (ix2 n j) k = ix2 n k := fun k =>
    funext fun a => Fin.ext (by match a with | ⟨0, _⟩ => rfl | ⟨1, _⟩ => rfl)
  have h4 : ∀ k : Fin 1024, idx_main_v9 (ridx_main_v10 (ix2 n j) k) = ix2 j k := fun k =>
    funext fun a => Fin.ext (by match a with | ⟨0, _⟩ => rfl | ⟨1, _⟩ => rfl)
  simp only [h1, h2, h3, h4, Ideal.mulf_def, Ideal.addf_def, Ideal.subf_def, Ideal.maximumf_def, Ideal.hostNegf_def,
    Ideal.negf_def, Ideal.hostDivf_def, Ideal.hostUnary_exp_def, Ideal.ofBits_def]
  show _ = Cert.SoftAttend.sim z e n j
  unfold Cert.SoftAttend.sim Cert.SoftAttend.dist2 Cert.SoftAttend.rowSq
  rw [Cert.SoftAttend.exp_neg_div_two]

/-- The reduced index `n` with column `k` put back is (n, k). -/
private theorem lift_ix2 (h : S8192x4096.Reduces [1] S8192) (n : Fin 8192) (k : Fin (S8192x4096.size 1)) :
    h.lift (ix1 n) k = ix2 n (⟨k.val, k.isLt⟩ : Fin 4096) := by
  funext c; apply Fin.ext
  fin_cases c <;> rfl

/-- The maximum the softmax subtracts in row `n` is the row maximum of the specification: the maximum, from `-∞`,
    of the row's 4096 similarities, taken once more against `-∞`. -/
theorem rowMax_eq (z : (⟨S8192x1024, .f32⟩ : BufTy).Contents (Elt Ideal)) (e : (⟨S4096x1024, .f32⟩ : BufTy).Contents (Elt Ideal))
    (n : Fin 8192) : Read.val_main_v22 (F := Ideal) z e (ix1 n) = Cert.SoftAttend.rowMax z e n := by
  have hR : S8192x4096.Reduces [1] S8192 := by decide
  rw [val_main_v22_apply, val_main_v21_apply, val_main_cst_5_apply]
  unfold val_main_v20
  rw [Host.reduce_eq_fold_single FloatOps.maximumf _ _ reducesTo_S8192x4096_S8192_d1 hR h_S_, sim_eq, val_main_cst_4_apply]
  unfold Cert.SoftAttend.rowMax
  have hf : ((fun i : S8192x4096.Idx => Cert.SoftAttend.sim z e (i 0) (i 1)) ∘ hR.lift (ix1 n))
      = fun k : Fin 4096 => Cert.SoftAttend.sim z e n k := funext fun k => by
    show Cert.SoftAttend.sim z e (hR.lift (ix1 n) k 0) (hR.lift (ix1 n) k 1) = _
    rw [lift_ix2 hR n k]
    rfl
  exact congrArg (fun f => max (Ideal.ofBits .f32 0xFF800000#32)
    (Finset.fold max (Ideal.ofBits .f32 0xFF800000#32) f (Finset.univ : Finset (Fin 4096)))) hf

/-- The second result of the reference is the softmax-weighted average of the specification. -/
theorem weighted_eq (z : (⟨S8192x1024, .f32⟩ : BufTy).Contents (Elt Ideal)) (e : (⟨S4096x1024, .f32⟩ : BufTy).Contents (Elt Ideal)) :
    Read.val_main_v31 (F := Ideal) z e = fun i => Cert.SoftAttend.wRef z e (i 0) (i 1) := by
  funext i
  obtain ⟨n, d, rfl⟩ : ∃ (n : Fin 8192) (d : Fin 1024), i = ix2 n d := ⟨i 0, i 1, eq_ix2 i⟩
  simp only [val_main_v31_apply, val_main_v30_apply, val_main_v29_apply, val_main_v28_apply, val_main_v27_apply,
    val_main_v26_apply, val_main_v25_apply, val_main_v24_apply, val_main_v23_apply, val_main_cst_6_apply]
  have g1 : ∀ k : Fin 4096, lidx_main_v31 (ix2 n d) k = ix2 n k := fun k =>
    funext fun a => Fin.ext (by match a with | ⟨0, _⟩ => rfl | ⟨1, _⟩ => rfl)
  have g2 : ∀ k : Fin 4096, ridx_main_v31 (ix2 n d) k = ix2 k d := fun k =>
    funext fun a => Fin.ext (by match a with | ⟨0, _⟩ => rfl | ⟨1, _⟩ => rfl)
  have g3 : ∀ k : Fin 4096, idx_main_v23 (idx_main_v24 (ix2 n k)) = ix1 n := fun k =>
    funext fun a => Fin.ext (by match a with | ⟨0, _⟩ => rfl)
  have g4 : ∀ k k' : Fin 4096, idx_main_v27 (idx_main_v28 (idx_main_v29 (ix2 n k))) k' = ix2 n k' := fun k k' =>
    funext fun a => Fin.ext (by match a with | ⟨0, _⟩ => rfl | ⟨1, _⟩ => rfl)
  simp only [g1, g2, g3, g4, sim_eq, rowMax_eq, Ideal.subf_def, Ideal.hostDivf_def, Ideal.hostUnary_exp_def, Ideal.ofBits_def]
  show _ = Cert.SoftAttend.wRef z e n d
  unfold Cert.SoftAttend.wRef
  rfl

end Cert.ReferenceIdeal.RefValue

end
-- ==== Proof.Finite.lean ====
/-
  FINITE INPUTS ARE REAL INPUTS. The precondition says that every entry of `z` and of `e` has an absolute value below
  `+∞`: it compares `|x| = max x (-x)` with the word of `+∞` entry by entry, takes the conjunction over all entries
  of each argument, and the conjunction of the two. An extended real whose absolute value is below `+∞` is neither
  `-∞` nor `+∞`, so it is a real number (`real_of_abs_lt`); choosing that real at every index gives each argument
  as the inclusion of a real-valued array (`real_of_pre`).
-/
import proofs.«163960_j71502615544486_2_alg».proof.Pre_finite_inputs
import proofs.«163960_j71502615544486_2_alg».proof.Proof.Spec
import Idealize.ShloMosaic.Lib.ReduceAll

noncomputable section

namespace Cert.FiniteInputs

open Idealize.ShloMosaic Idealize.ShloMosaic.ValueIdx Cert.SoftAttend

/-- An extended real whose absolute value compares below the word of `+∞` is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  have hlt : max x (-x) < ⊤ := by
    by_contra hn
    simp [Ideal.cmp, hn] at h
  induction x using EReal.rec with
  | bot => simp at hlt
  | coe r => exact ⟨r, rfl⟩
  | top => simp at hlt

/-- Under the precondition both arguments are arrays of real numbers. -/
theorem real_of_pre [Cert.Pre_finite_inputs.Facts]
    (z : (⟨Cert.Pre_finite_inputs.S8192x1024, .f32⟩ : BufTy).Contents (Elt Ideal))
    (e : (⟨Cert.Pre_finite_inputs.S4096x1024, .f32⟩ : BufTy).Contents (Elt Ideal))
    (h : Cert.Pre_finite_inputs.fn (F := Ideal) z e = fun _ => 1#1) :
    (∃ Z : Zs.Idx → ℝ, z = fun i => ((Z i : ℝ) : EReal)) ∧ (∃ E : Es.Idx → ℝ, e = fun i => ((E i : ℝ) : EReal)) := by
  have h0 := congrFun h ValueIdx.ix0
  dsimp only [Cert.Pre_finite_inputs.fn] at h0
  obtain ⟨hz, he⟩ := IntOp.andi_eq_one.1 h0
  -- the scalar shape has one index, so each conjunction over all entries gives every entry
  haveI : Subsingleton Cert.Pre_finite_inputs.S_.Idx := ⟨fun a b => funext fun d => d.elim0⟩
  have ez : ∀ i, ∃ r : ℝ, z i = (r : EReal) := fun i =>
    real_of_abs_lt (z i) (Host.reduce_andi_all _ _ _ _ _ hz i)
  have ee : ∀ i, ∃ r : ℝ, e i = (r : EReal) := fun i =>
    real_of_abs_lt (e i) (Host.reduce_andi_all _ _ _ _ _ he i)
  choose Z hZ using ez
  choose E hE using ee
  exact ⟨⟨Z, funext hZ⟩, ⟨E, funext hE⟩⟩

end Cert.FiniteInputs

end
-- ==== Proof.lean ====
/-
  The certificate of one kernel against its reference, at the extended reals.

  Inputs: `z` (8192 × 1024) and `e` (4096 × 1024). Both programs compute the similarities
  `sim n j = exp (-max (|z_n|² + |e_j|² - 2 z_n·e_j, 0) / 2)` and the softmax-weighted average of the rows
  of `e`, `∑ j, softmax_j (sim n ·) * e j d`.

  The kernel walks an 8 × 8 grid; a point computes one 1024 × 512 block of similarities and adds that block's
  share of `∑ j, exp (sim n j)` and of `∑ j, exp (sim n j) * e j d` to two buffers carried along a row of the
  grid, dividing one by the other at the row's last point. The reference subtracts the row maximum inside the
  exponentials and normalises entry by entry before the product with `e`.

  The first results agree for all extended-real inputs (the only difference, `exp (d * (-1/2))` against
  `exp ((-d) / 2)`, is an identity of extended reals). The second results agree when every input is a real
  number, which the precondition gives: then every term is real, the shift by the row maximum cancels, and
  the common normaliser moves out of the sum over `j`.

  Modules: Spec (the two results as functions of `z` and `e`, and the law joining the two spellings of the
  second), LibRealSums (real sums inside the extended reals), Pieces / Payload / Blocks / PointValue / RowExt /
  BlockSums / Arrays (the kernel's results are those functions), RefValue (so are the reference's), Finite
  (finite inputs are real).
-/
import proofs.«163960_j71502615544486_2_alg».proof.Defs
import proofs.«163960_j71502615544486_2_alg».proof.Proof.Gen.Kernel
import proofs.«163960_j71502615544486_2_alg».proof.Proof.Gen.Kernel.Skeleton
import proofs.«163960_j71502615544486_2_alg».proof.Proof.Gen.Kernel.Launch
import proofs.«163960_j71502615544486_2_alg».proof.Proof.Gen.Kernel.Points
import proofs.«163960_j71502615544486_2_alg».proof.Proof.Gen.Kernel.Frame
import proofs.«163960_j71502615544486_2_alg».proof.Proof.Gen.KernelIdeal
import proofs.«163960_j71502615544486_2_alg».proof.Proof.Gen.KernelIdeal.Skeleton
import proofs.«163960_j71502615544486_2_alg».proof.Proof.Gen.KernelIdeal.Launch
import proofs.«163960_j71502615544486_2_alg».proof.Proof.Gen.KernelIdeal.Points
import proofs.«163960_j71502615544486_2_alg».proof.Proof.Gen.KernelIdeal.Frame
import proofs.«163960_j71502615544486_2_alg».proof.Proof.Gen.ReferenceIdeal
import proofs.«163960_j71502615544486_2_alg».proof.Proof.Gen.Pre_finite_inputs
import proofs.«163960_j71502615544486_2_alg».proof.Proof.Gen.KernelIdeal.Value
import proofs.«163960_j71502615544486_2_alg».proof.Proof.Gen.ReferenceIdeal.Run
import proofs.«163960_j71502615544486_2_alg».proof.Proof.Gen.ReferenceIdeal.Read
import proofs.«163960_j71502615544486_2_alg».proof.Proof.Arrays
import proofs.«163960_j71502615544486_2_alg».proof.Proof.RefValue
import proofs.«163960_j71502615544486_2_alg».proof.Proof.Finite
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel ends with its two results at `sim` and `wK` of its arguments; the reference with
    `sim` and `wRef` of its own, which agree with the kernel's; and `wRef = wK` on real inputs. -/
theorem algebraic : Cert.algebraic_KernelIdeal_ReferenceIdeal := by
  intro m ρ m' ρ' hpre hagree
  refine ⟨fun c => Cert.KernelIdeal.Arrays.simArr (Cert.KernelIdeal.Blocks.zArr m c) (Cert.KernelIdeal.Blocks.eArr m c),
    fun c => Cert.KernelIdeal.Arrays.wArr (Cert.KernelIdeal.Blocks.zArr m c) (Cert.KernelIdeal.Blocks.eArr m c),
    Cert.KernelIdeal.Arrays.run m ρ, ?_⟩
  refine (θ_run Cert.ReferenceIdeal.defs _ _).mono (fun r h c => ?_) (Cert.ReferenceIdeal.Value.run (F := Ideal) m' ρ')
  obtain ⟨⟨Z, hZ⟩, ⟨E, hE⟩⟩ := Cert.FiniteInputs.real_of_pre _ _ (hpre c)
  refine ⟨?_, ?_, (h c).2.2.1, (h c).2.2.2⟩
  · rw [(h c).1, Cert.ReferenceIdeal.Read.val_main_v19_eq, Cert.ReferenceIdeal.RefValue.sim_eq, (hagree c).1, (hagree c).2]
  · rw [(h c).2.1, Cert.ReferenceIdeal.Read.val_main_v31_eq, Cert.ReferenceIdeal.RefValue.weighted_eq, (hagree c).1, (hagree c).2]
    funext i
    show Cert.SoftAttend.wRef (Cert.KernelIdeal.Blocks.zArr m c) (Cert.KernelIdeal.Blocks.eArr m c) (i 0) (i 1)
      = Cert.SoftAttend.wK (Cert.KernelIdeal.Blocks.zArr m c) (Cert.KernelIdeal.Blocks.eArr m c) (i 0) (i 1)
    have hz : Cert.KernelIdeal.Blocks.zArr m c = fun i => ((Z i : ℝ) : EReal) := hZ
    have he : Cert.KernelIdeal.Blocks.eArr m c = fun i => ((E i : ℝ) : EReal) := hE
    rw [hz, he]
    exact Cert.SoftAttend.wRef_eq_wK Z E (i 0) (i 1)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
